-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x7 : Shape := ⟨2, ![128, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S128x7 1) : IVec S_ 1 :=
  let main_c_5 : IVec S_ 1 := constantI S_ 1 1#1
  let main_v17 : IVec S_ 1 := (fun x v => Host.reduce IntOp.andi x v reducesTo_S128x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x7 .f32 := Host.absf main_arg4
  let main_cst_4 : FVec F S_ .f32 := constant S_ .f32 0x7F800000#32
  let main_v15 : FVec F S128x7 .f32 := broadcastInDim S128x7 ![] bcast_S_S128x7 main_cst_4
  let main_v16 : IVec S128x7 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x7 : Shape := ⟨2, ![128, 7]⟩
abbrev S7 : Shape := ⟨1, ![7]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x512 : Shape := ⟨2, ![2000, 512]⟩
abbrev S2000x128 : Shape := ⟨2, ![2000, 128]⟩
abbrev S1700000x128 : Shape := ⟨2, ![1700000, 128]⟩
abbrev S1x128 : Shape := ⟨2, ![1, 128]⟩
abbrev S100000x7 : Shape := ⟨2, ![100000, 7]⟩
abbrev S2000x7 : Shape := ⟨2, ![2000, 7]⟩
abbrev S1700000x7 : Shape := ⟨2, ![1700000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x7, .f32⟩
  | .hbm, ⟨5, _⟩ => ⟨S7, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x7, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x7, .f32⟩
  | .hbm, ⟨79, _⟩ => ⟨S1700000x1, .f32⟩
  | .hbm, ⟨80, _⟩ => ⟨S1700000x7, .f32⟩
  | .hbm, ⟨81, _⟩ => ⟨S1700000x7, .f32⟩
  | .hbm, ⟨82, _⟩ => ⟨S_, .f32⟩
  | .hbm, ⟨83, _⟩ => ⟨S100000x7, .f32⟩
  | .hbm, ⟨84, _⟩ => ⟨S1700000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x7, .f32⟩
  | .local _ .vmem, ⟨8, _⟩ => ⟨S2000x7, .f32⟩
  | .local _ .vmem, ⟨9, _⟩ => ⟨S2000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x7_S128x7_0_0 : ∀ a, (![0, 0] : Fin 2 → Nat) a + S128x7.size a ≤ S128x7.size a
  h_S128x7 : 0 < S128x7.numel
  inb_S2000x7_S2000x7_0_0 : ∀ a, (![0, 0] : Fin 2 → Nat) a + S2000x7.size a ≤ S2000x7.size a
  h_S2000x7 : 0 < S2000x7.numel
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x7_S2000x7_1_0_0_1_n_n_wf : DotDims.WF S2000x128 S128x7 S2000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x7.size a ≤ S128x7.size a
  hwx1_1 : ∀ i : grid1.Coords, EltTy.bits .f32 = 32 ∨ (Rect.block (s := S128x7) S128x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S100000x7.size a
  hwx1_2 : ∀ i : grid1.Coords, EltTy.bits .f32 = 32 ∨ (Rect.block (s := S100000x7) S2000x7.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x7_S2000x7_1_0_0_1_n_n : DotDims S2000x128 S128x7 S2000x7 where
  lhsContracting := [1]
  rhsContracting := [0]
  lhsNonContracting := [0]
  rhsNonContracting := [1]
  lhsBatch := []
  rhsBatch := []
  wf := dot_S2000x128_S128x7_S2000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x7 : Shape := ⟨2, ![128, 7]⟩
abbrev S7 : Shape := ⟨1, ![7]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x1600000, .i32⟩
  | 2 => ⟨S512x128, .f32⟩
  | 3 => ⟨S128, .f32⟩
  | 4 => ⟨S128x7, .f32⟩
  | 5 => ⟨S7, .f32⟩
  | 6 => ⟨S100000x128, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x128, .f32⟩
  | 56 => ⟨S1700000x1, .f32⟩
  | 57 => ⟨S1700000x128, .f32⟩
  | 58 => ⟨S1700000x128, .f32⟩
  | 59 => ⟨S_, .f32⟩
  | 60 => ⟨S100000x128, .f32⟩
  | 61 => ⟨S1700000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x7, .f32⟩
  | 70 => ⟨S100000, .i32⟩
  | 71 => ⟨S1x1600000, .i32⟩
  | 72 => ⟨S1600000, .i32⟩
  | 73 => ⟨S1700000, .i32⟩
  | 74 => ⟨S1x1600000, .i32⟩
  | 75 => ⟨S1600000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x7, .f32⟩
  | 119 => ⟨S1700000x1, .f32⟩
  | 120 => ⟨S1700000x7, .f32⟩
  | 121 => ⟨S1700000x7, .f32⟩
  | 122 => ⟨S_, .f32⟩
  | 123 => ⟨S100000x7, .f32⟩
  | 124 => ⟨S1700000x1, .i32⟩
  | 125 => ⟨S100000x7, .f32⟩
  | 126 => ⟨S1x7, .f32⟩
  | 127 => ⟨S100000x7, .f32⟩
  | _ => ⟨S100000x512, .f32⟩

abbrev hbmTy0_1 (i : Nat) : BufTy := match i % 128 with
  | 0 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x7_S100000x7_1_0_0_1_n_n_wf : DotDims.WF S100000x128 S128x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x7_S100000x7_1_0_0_1_n_n : DotDims S100000x128 S128x7 S100000x7 where
  lhsContracting := [1]
  rhsContracting := [0]
  lhsNonContracting := [0]
  rhsNonContracting := [1]
  lhsBatch := []
  rhsBatch := []
  wf := dot_S100000x128_S128x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.KernelRun.lean ====
/-
  The kernel program's run with its result named.

  The program is three stretches of host operations, the first launch, two stretches, the second launch and a last
  stretch. Every weakly fair execution terminates without a fault, and the buffer contents at each boundary are the fold
  of the stretches and of the launches' write-backs from the launch memory; at the return every unscoped buffer holds that
  fold's last stage. The generated frame reads off it only that the six arguments are unchanged; here the same run is
  read once more, at the result buffer as well: it ends holding the last stage's value there.
-/
import proofs.«178475_j13331578486813_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the six arguments as launched. -/
theorem run_named : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.GraphLayer.lean ====
/-
  One graph-convolution layer around a dense product, as a function of the product.

  The graph has 100000 nodes and 1600000 directed edges given as a 2 × 1600000 array of node numbers (row 0 the
  sources, row 1 the targets); every node also carries a self loop, so there are 1700000 edge slots: the given edges
  followed by the loops 0 … 99999. A node's degree is the number of slots whose target it is (a scatter-add of ones);
  its normaliser is the inverse square root of the degree where the degree is positive and 0 elsewhere; an edge slot's
  weight is the product of the normalisers at its source and at its target (each read by a gather, a negative node
  number counted from the end). A layer takes the rows `h` of a dense product, gathers row `source` for every slot,
  scales it by the slot's weight, adds it into row `target` (a scatter-add into zeros) and adds the bias to every row.
  The first layer's result passes through `max(·, 0)`.

  Both programs apply exactly these operations to their dense product, so the layer is carried here as ONE function
  of that product and is never opened: what is proved elsewhere is that the two dense products agree. Nothing here
  depends on what a float is: the functions are stated for any float values.
-/
import proofs.«178475_j13331578486813_1_alg».proof.Proof.Gen.KernelIdeal
import Idealize.ShloMosaic.PureOps.Ideal

noncomputable section

namespace Cert.KernelIdeal.GraphLayer

open Idealize.ShloMosaic Cert.KernelIdeal Cert.KernelIdeal.Facts₀

variable {F : FTy → Type} [FloatOps F]

/-- The sources of the 1700000 edge slots: row 0 of the edge array, then the self loops 0 … 99999. -/
def sources (e : IVec S2x1600000 32) : IVec S1700000 32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

/-- The targets of the edge slots: row 1 of the edge array, then the self loops. -/
def targets (e : IVec S2x1600000 32) : IVec S1700000 32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- A node number read for a gather: a negative one is counted from the end, `i + 100000`. -/
def fromEnd (i : IVec S1700000 32) : IVec S1700000 32 :=
  select (cmpi .slt i (broadcastInDim S1700000 ![] bcast_S_S1700000 (constantI S_ 32 0#32)))
    (addi i (broadcastInDim S1700000 ![] bcast_S_S1700000 (constantI S_ 32 100000#32))) i

/-- The node numbers as a one-column index array. -/
def column (i : IVec S1700000 32) : IVec S1700000x1 32 :=
  broadcastInDim S1700000x1 ![0] bcast_S1700000_S1700000x1_0 i

/-- A node's degree: 1 added at the node for every edge slot whose target it is. -/
def degree (e : IVec S2x1600000 32) : FVec F S100000 .f32 :=
  Host.scatterAdd (F := F) scatter_S100000_S1700000x1_S1700000_n_0_0_1
    (broadcastInDim S100000 ![] bcast_S_S100000 (constant (F := F) S_ .f32 0x00000000#32))
    (column (targets e))
    (broadcastInDim S1700000 ![] bcast_S_S1700000 (constant (F := F) S_ .f32 0x3F800000#32))

/-- A node's normaliser: `degree^(-1/2)` where the degree is positive, `0` elsewhere. -/
def normaliser (e : IVec S2x1600000 32) : FVec F S100000 .f32 :=
  select (cmpf (F := F) .ogt (degree e) (broadcastInDim S100000 ![] bcast_S_S100000 (constant (F := F) S_ .f32 0x00000000#32)))
    (Host.rsqrt (F := F) (degree e))
    (broadcastInDim S100000 ![] bcast_S_S100000 (constant (F := F) S_ .f32 0x00000000#32))

/-- An edge slot's weight: the normaliser at its source times the normaliser at its target. -/
def weight (e : IVec S2x1600000 32) : FVec F S1700000 .f32 :=
  mulf (Host.gather gather_S100000_S1700000x1_S1700000_n_0_n_n_0_1_1 (normaliser e) (column (fromEnd (sources e))))
    (Host.gather gather_S100000_S1700000x1_S1700000_n_0_n_n_0_1_1 (normaliser e) (column (fromEnd (targets e))))

/-- The first layer on the rows `h` of width 128: gather by source, scale by the weight, add into the target row, add the bias. -/
def layer128 (h : FVec F S100000x128 .f32) (e : IVec S2x1600000 32) (b : FVec F S128 .f32) : FVec F S100000x128 .f32 :=
  addf
    (Host.scatterAdd (F := F) scatter_S100000x128_S1700000x1_S1700000x128_1_0_0_1
      (broadcastInDim S100000x128 ![] bcast_S_S100000x128 (constant (F := F) S_ .f32 0x00000000#32))
      (column (targets e))
      (mulf (Host.gather gather_S100000x128_S1700000x1_S1700000x128_1_0_n_n_0_1_1128 h (column (fromEnd (sources e))))
        (broadcastInDim S1700000x128 ![0, 1] bcast_S1700000x1_S1700000x128_0_1
          (broadcastInDim S1700000x1 ![0] bcast_S1700000_S1700000x1_0 (weight e)))))
    (broadcastInDim S100000x128 ![0, 1] bcast_S1x128_S100000x128_0_1 (broadcastInDim S1x128 ![1] bcast_S128_S1x128_1 b))

/-- `max(·, 0)` on the first layer's rows. -/
def relu128 (x : FVec F S100000x128 .f32) : FVec F S100000x128 .f32 :=
  maximumf x (broadcastInDim S100000x128 ![] bcast_S_S100000x128 (constant (F := F) S_ .f32 0x00000000#32))

/-- The second layer on the rows `h` of width 7. -/
def layer7 (h : FVec F S100000x7 .f32) (e : IVec S2x1600000 32) (b : FVec F S7 .f32) : FVec F S100000x7 .f32 :=
  addf
    (Host.scatterAdd (F := F) scatter_S100000x7_S1700000x1_S1700000x7_1_0_0_1
      (broadcastInDim S100000x7 ![] bcast_S_S100000x7 (constant (F := F) S_ .f32 0x00000000#32))
      (column (targets e))
      (mulf (Host.gather gather_S100000x7_S1700000x1_S1700000x7_1_0_n_n_0_1_17 h (column (fromEnd (sources e))))
        (broadcastInDim S1700000x7 ![0, 1] bcast_S1700000x1_S1700000x7_0_1
          (broadcastInDim S1700000x1 ![0] bcast_S1700000_S1700000x1_0 (weight e)))))
    (broadcastInDim S100000x7 ![0, 1] bcast_S1x7_S100000x7_0_1 (broadcastInDim S1x7 ![1] bcast_S7_S1x7_1 b))

/-- The whole network around its two dense products `p₁` (rows × first weights) and `p₂` (hidden rows × second
    weights), the second product taken of the first layer's rectified result. -/
def network (p₁ : FVec F S100000x128 .f32)
    (p₂ : FVec F S100000x128 .f32 → FVec F S100000x7 .f32)
    (e : IVec S2x1600000 32) (b₁ : FVec F S128 .f32) (b₂ : FVec F S7 .f32) : FVec F S100000x7 .f32 :=
  layer7 (p₂ (relu128 (layer128 p₁ e b₁))) e b₂

end Cert.KernelIdeal.GraphLayer

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«178475_j13331578486813_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.FirstProduct.lean ====
/-
  The first dense product, tile by tile, is the whole product.

  The first kernel launch runs over 50 grid points. At point `t` it reads rows `2000·t … 2000·t + 1999` of the 100000 × 512
  input and the whole 512 × 128 weight matrix, and writes rows `2000·t … 2000·t + 1999` of the 100000 × 128 result: the
  product of the tile by the weights into a zero accumulator (the rounding of both operands to bf16 is the identity on
  the extended reals). Entry `(a, b)` of that tile is `∑ k, X[2000·t + a, k] · W[k, b]`, which is entry `(2000·t + a, b)`
  of the whole product `X · W`; the 50 tiles cover every row (row `r` lies in tile `r / 2000`), so the array the launch
  leaves is the whole product — whatever the buffers held when the launch was entered.
-/
import proofs.«178475_j13331578486813_1_alg».proof.Proof.Gen.KernelIdeal.Frame
import proofs.«178475_j13331578486813_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The whole product `X · W` of the 100000 × 512 rows by the 512 × 128 weights. -/
def product (X : FVec Ideal S100000x512 .f32) (W : FVec Ideal S512x128 .f32) : FVec Ideal S100000x128 .f32 :=
  FloatOps.dotGeneral (DotDims.plain 100000 512 128) none .single X W

/-- The whole product at an entry. -/
theorem product_entry (X : FVec Ideal S100000x512 .f32) (W : FVec Ideal S512x128 .f32) (r : Fin 100000) (b : Fin 128) :
    product X W (ix2 r b) = ∑ k : Fin 512, X (ix2 r k) * W (ix2 k b) :=
  PlainDot.dotGeneral_apply_entry none .single X W r b

/-- A tile's product at an entry: the rows of the tile against the columns of the weights. -/
theorem tile_entry (x0 : Vec Ideal S2000x512 .f32) (x1 : Vec Ideal S512x128 .f32) (a : Fin 2000) (b : Fin 128) :
    k0_pay1 (F := Ideal) x0 x1 (ix2 a b) = ∑ k : Fin 512, x0 (ix2 a k) * x1 (ix2 k b) :=
  PlainMatmul.matmul_zero_apply none (truncf .bf16 x0 bitsLt_bf16_f32) (truncf .bf16 x1 bitsLt_bf16_f32) a b

/-- The block numbers at grid point `t`: the row windows are at block `t`, the weights' window at block 0. -/
theorem block_numbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `2000·t + a` is a row of the array. -/
theorem row_lt (t : Fin cfg0.N) (a : Fin 2000) : 2000 * t.val + a.val < 100000 := by
  have := t.isLt; have := a.isLt; have : cfg0.N = 50 := N_0; omega

/-- The input tile at point `t` holds rows `2000·t …` of the input array. -/
theorem rows_tile (c : Dev nD) (t : Fin cfg0.N) (a : Fin 2000) (k : Fin 512) :
    iblk0 V c 0 t (ix2 a k) = V c main_arg0 (ix2 ⟨2000 * t.val + a.val, row_lt t a⟩ k) := by
  obtain ⟨e0, e1, -, -, -, -⟩ := block_numbers t
  show V c main_arg0 (((cfg0.win 0).blk t).view.emb (ix2 a k)) = _
  refine congrArg (V c main_arg0) (funext fun ax => Fin.ext ?_)
  match ax with
  | ⟨0, _⟩ => show win0_0.index t (0 : Fin 2) * 2000 + 1 * a.val = 2000 * t.val + a.val; omega
  | ⟨1, _⟩ => show win0_0.index t (1 : Fin 2) * 512 + 1 * k.val = k.val; omega

/-- The weights' tile at every point is the whole weight matrix. -/
theorem weights_tile (c : Dev nD) (t : Fin cfg0.N) (k : Fin 512) (b : Fin 128) :
    iblk0 V c 1 t (ix2 k b) = V c main_arg2 (ix2 k b) := by
  obtain ⟨-, -, e2, e3, -, -⟩ := block_numbers t
  show V c main_arg2 (((cfg0.win 1).blk t).view.emb (ix2 k b)) = _
  refine congrArg (V c main_arg2) (funext fun ax => Fin.ext ?_)
  match ax with
  | ⟨0, _⟩ => show win0_1.index t (0 : Fin 2) * 512 + 1 * k.val = k.val; omega
  | ⟨1, _⟩ => show win0_1.index t (1 : Fin 2) * 128 + 1 * b.val = b.val; omega

/-- WHAT POINT `t` WRITES BACK is tile `t` of the whole product of the arrays as the launch finds them. -/
theorem written_back (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S2000x512) origin, View.ld_unit_zero (S := S512x128) origin]
  funext j
  obtain ⟨a, b, rfl⟩ : ∃ (a : Fin 2000) (b : Fin 128), j = ix2 a b := ⟨j 0, j 1, eq_ix2 j⟩
  obtain ⟨-, -, -, -, e4, e5⟩ := block_numbers t
  have hemb : ((cfg0.win 2).blk t).view.emb (ix2 a b) = ix2 ⟨2000 * t.val + a.val, row_lt t a⟩ b :=
    funext fun ax => Fin.ext (by
      match ax with
      | ⟨0, _⟩ => show win0_2.index t (0 : Fin 2) * 2000 + 1 * a.val = 2000 * t.val + a.val; omega
      | ⟨1, _⟩ => show win0_2.index t (1 : Fin 2) * 128 + 1 * b.val = b.val; omega)
  show k0_pay1 (F := Ideal) (iblk0 V c 0 t) (iblk0 V c 1 t) (ix2 a b)
    = product (V c main_arg0) (V c main_arg2) (((cfg0.win 2).blk t).view.emb (ix2 a b))
  rw [hemb, tile_entry, product_entry]
  exact Finset.sum_congr rfl fun k _ => by rw [rows_tile, weights_tile]

/-- An index of the result array is in point `t`'s tile iff each coordinate is in the tile's range on its axis. -/
theorem mem_tile (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every entry of the result lies in the tile of point `row / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by omega⟩, flush0_2 _, ?_⟩
  rw [mem_tile]
  obtain ⟨-, -, -, -, e4, e5⟩ := block_numbers ⟨(i 0).val / 2000, by omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- THE ARRAY THE FIRST LAUNCH LEAVES is the whole product of the input rows by the first weights, as the launch
    finds them. -/
theorem array_eq (c : Dev nD) :
    (dat0 V c).arrAt 2 cfg0.N = product (V c main_arg0) (V c main_arg2) :=
  (dat0 V c).arrAt_eq_of_cover 2 (product (V c main_arg0) (V c main_arg2)) (fun t _ => written_back V c t) covered

end Cert.KernelIdeal.FirstProduct

end
-- ==== Proof.SecondProduct.lean ====
/-
  The second dense product, tile by tile, is the whole product.

  The second kernel launch runs over 50 grid points. At point `t` it reads rows `2000·t … 2000·t + 1999` of the
  100000 × 128 hidden array and the whole 128 × 7 weight matrix, and writes rows `2000·t … 2000·t + 1999` of the
  100000 × 7 result: the product of the tile by the weights into a zero accumulator (the reshape of the tile to its own
  shape and the rounding of both operands to bf16 are the identity on the extended reals). Entry `(a, b)` of that tile
  is `∑ k, H[2000·t + a, k] · W[k, b]`, entry `(2000·t + a, b)` of the whole product `H · W`; the 50 tiles cover every
  row, so the array the launch leaves is the whole product — whatever the buffers held when the launch was entered.
-/
import proofs.«178475_j13331578486813_1_alg».proof.Proof.Gen.KernelIdeal.Frame
import proofs.«178475_j13331578486813_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Every access of the body starts at the origin of its buffer. -/
theorem origin : (![0, 0] : Fin 2 → Nat) = fun _ => 0 := funext fun a => by fin_cases a <;> rfl

/-- The whole product `H · W` of the 100000 × 128 hidden rows by the 128 × 7 weights. -/
def product (X : FVec Ideal S100000x128 .f32) (W : FVec Ideal S128x7 .f32) : FVec Ideal S100000x7 .f32 :=
  FloatOps.dotGeneral (DotDims.plain 100000 128 7) none .single X W

/-- The whole product at an entry. -/
theorem product_entry (X : FVec Ideal S100000x128 .f32) (W : FVec Ideal S128x7 .f32) (r : Fin 100000) (b : Fin 7) :
    product X W (ix2 r b) = ∑ k : Fin 128, X (ix2 r k) * W (ix2 k b) :=
  PlainDot.dotGeneral_apply_entry none .single X W r b

/-- A tile's product at an entry: the rows of the tile against the columns of the weights. -/
theorem tile_entry (x0 : Vec Ideal S2000x128 .f32) (x1 : Vec Ideal S128x7 .f32) (a : Fin 2000) (b : Fin 7) :
    k1_pay1 (F := Ideal) x0 x1 (ix2 a b) = ∑ k : Fin 128, x0 (ix2 a k) * x1 (ix2 k b) := by
  refine (PlainMatmul.matmul_zero_apply none
    (truncf .bf16 (shapeCast S2000x128 x0 shapeCasts_S2000x128_S2000x128) bitsLt_bf16_f32) (truncf .bf16 x1 bitsLt_bf16_f32) a b).trans ?_
  refine Finset.sum_congr rfl fun k _ => ?_
  rw [truncf_apply, truncf_apply, shapeCast_self]

/-- The block numbers at grid point `t`: the row windows are at block `t`, the weights' window at block 0. -/
theorem block_numbers : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `2000·t + a` is a row of the array. -/
theorem row_lt (t : Fin cfg1.N) (a : Fin 2000) : 2000 * t.val + a.val < 100000 := by
  have := t.isLt; have := a.isLt; have : cfg1.N = 50 := N_1; omega

/-- The input tile at point `t` holds rows `2000·t …` of the input array. -/
theorem rows_tile (c : Dev nD) (t : Fin cfg1.N) (a : Fin 2000) (k : Fin 128) :
    iblk1 V c 0 t (ix2 a k) = V c main_v47 (ix2 ⟨2000 * t.val + a.val, row_lt t a⟩ k) := by
  obtain ⟨e0, e1, -, -, -, -⟩ := block_numbers t
  show V c main_v47 (((cfg1.win 0).blk t).view.emb (ix2 a k)) = _
  refine congrArg (V c main_v47) (funext fun ax => Fin.ext ?_)
  match ax with
  | ⟨0, _⟩ => show win1_0.index t (0 : Fin 2) * 2000 + 1 * a.val = 2000 * t.val + a.val; omega
  | ⟨1, _⟩ => show win1_0.index t (1 : Fin 2) * 128 + 1 * k.val = k.val; omega

/-- The weights' tile at every point is the whole weight matrix. -/
theorem weights_tile (c : Dev nD) (t : Fin cfg1.N) (k : Fin 128) (b : Fin 7) :
    iblk1 V c 1 t (ix2 k b) = V c main_arg4 (ix2 k b) := by
  obtain ⟨-, -, e2, e3, -, -⟩ := block_numbers t
  show V c main_arg4 (((cfg1.win 1).blk t).view.emb (ix2 k b)) = _
  refine congrArg (V c main_arg4) (funext fun ax => Fin.ext ?_)
  match ax with
  | ⟨0, _⟩ => show win1_1.index t (0 : Fin 2) * 128 + 1 * k.val = k.val; omega
  | ⟨1, _⟩ => show win1_1.index t (1 : Fin 2) * 7 + 1 * b.val = b.val; omega

/-- WHAT POINT `t` WRITES BACK is tile `t` of the whole product of the arrays as the launch finds them. -/
theorem written_back (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x7) origin]
  funext j
  obtain ⟨a, b, rfl⟩ : ∃ (a : Fin 2000) (b : Fin 7), j = ix2 a b := ⟨j 0, j 1, eq_ix2 j⟩
  obtain ⟨-, -, -, -, e4, e5⟩ := block_numbers t
  have hemb : ((cfg1.win 2).blk t).view.emb (ix2 a b) = ix2 ⟨2000 * t.val + a.val, row_lt t a⟩ b :=
    funext fun ax => Fin.ext (by
      match ax with
      | ⟨0, _⟩ => show win1_2.index t (0 : Fin 2) * 2000 + 1 * a.val = 2000 * t.val + a.val; omega
      | ⟨1, _⟩ => show win1_2.index t (1 : Fin 2) * 7 + 1 * b.val = b.val; omega)
  show k1_pay1 (F := Ideal) (iblk1 V c 0 t) (iblk1 V c 1 t) (ix2 a b)
    = product (V c main_v47) (V c main_arg4) (((cfg1.win 2).blk t).view.emb (ix2 a b))
  rw [hemb, tile_entry, product_entry]
  exact Finset.sum_congr rfl fun k _ => by rw [rows_tile, weights_tile]

/-- An index of the result array is in point `t`'s tile iff each coordinate is in the tile's range on its axis. -/
theorem mem_tile (t : Fin cfg1.N) (i : S100000x7.Idx) :
    i ∈ ((cfg1.win 2).blk t).view.set ↔ ∀ a : Fin 2, win1_2.index t a * S2000x7.size a ≤ (i a).val ∧ (i a).val < win1_2.index t a * S2000x7.size a + S2000x7.size a := by
  show i ∈ ((View.whole main_v48).slice (win1_2.rect t)).set ↔ _
  rw [View.set_slice_whole, Rect.mem_set_unit]
  exact Iff.rfl

/-- Every entry of the result lies in the tile of point `row / 2000`. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 50 := N_1
  refine ⟨⟨(i 0).val / 2000, by omega⟩, flush1_2 _, ?_⟩
  rw [mem_tile]
  obtain ⟨-, -, -, -, e4, e5⟩ := block_numbers ⟨(i 0).val / 2000, by omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 7 ≤ (i 1).val ∧ (i 1).val < win1_2.index _ (1 : Fin 2) * 7 + 7
    rw [e5]; omega

/-- THE ARRAY THE SECOND LAUNCH LEAVES is the whole product of the hidden rows by the second weights, as the launch
    finds them. -/
theorem array_eq (c : Dev nD) :
    (dat1 V c).arrAt 2 cfg1.N = product (V c main_v47) (V c main_arg4) :=
  (dat1 V c).arrAt_eq_of_cover 2 (product (V c main_v47) (V c main_arg4)) (fun t _ => written_back V c t) covered

end Cert.KernelIdeal.SecondProduct

end
-- ==== Proof.Entry.lean ====
/-
  The kernel program's buffers when the first launch is entered, as functions of the arguments.

  Three stretches of host operations run before the first launch. The first builds the edge slots' sources and targets
  (a row of the edge array followed by the self loops), the degrees (a scatter-add of ones at the targets), the
  comparison of the degrees with zero and their inverse square roots; the second selects between these (the
  normalisers); the third gathers the normalisers at the two ends of every slot, a negative node number counted from
  the end, and multiplies them (the weights). Read one stretch at a time, over whatever the stretch before left, these
  are the functions of the edge array that `GraphLayer` names. No host operation writes an argument.
-/
import proofs.«178475_j13331578486813_1_alg».proof.Proof.Gen.KernelIdeal.Frame
import proofs.«178475_j13331578486813_1_alg».proof.Proof.GraphLayer
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.GraphLayer

variable {F : FTy → Type} [FloatOps F]

variable (m : (ℓ : Loc nD τ sig) → Buf (Elt F) ℓ) (ρ : Dev nD → PrngReg)

/-! ## The first stretch -/

set_option maxHeartbeats 4000000 in
/-- The first stretch leaves the edge slots' sources, -/
theorem sources1 (c : Dev nD) :
    (W1 m ρ c (Proc.devRef .tc main_v3) : IVec S1700000 32) = sources (m ((c.tc : Thread nD τ).loc main_arg1)) := by
  dsimp only [W1, hostOps0]
  after_results <;> rfl

set_option maxHeartbeats 4000000 in
/-- their targets, -/
theorem targets1 (c : Dev nD) :
    (W1 m ρ c (Proc.devRef .tc main_v6) : IVec S1700000 32) = targets (m ((c.tc : Thread nD τ).loc main_arg1)) := by
  dsimp only [W1, hostOps0]
  after_results <;> rfl

set_option maxHeartbeats 4000000 in
/-- where a node's degree is positive, -/
theorem positive1 (c : Dev nD) :
    (W1 m ρ c (Proc.devRef .tc main_v12) : IVec S100000 1)
      = cmpf (F := F) .ogt (degree (m ((c.tc : Thread nD τ).loc main_arg1))) (broadcastInDim S100000 ![] bcast_S_S100000 (constant (F := F) S_ .f32 0x00000000#32)) := by
  dsimp only [W1, hostOps0]
  after_results <;> rfl

set_option maxHeartbeats 4000000 in
/-- the inverse square roots of the degrees, -/
theorem rsqrt1 (c : Dev nD) :
    (W1 m ρ c (Proc.devRef .tc main_v13) : FVec F S100000 .f32) = Host.rsqrt (F := F) (degree (m ((c.tc : Thread nD τ).loc main_arg1))) := by
  dsimp only [W1, hostOps0]
  after_results <;> rfl

set_option maxHeartbeats 4000000 in
/-- and the constant zero. -/
theorem zero1 (c : Dev nD) :
    (W1 m ρ c (Proc.devRef .tc main_cst_2) : FVec F S_ .f32) = constant (F := F) S_ .f32 0x00000000#32 := by
  dsimp only [W1, hostOps0]
  after_results <;> rfl

/-! ## The second stretch -/

set_option maxHeartbeats 4000000 in
/-- The second stretch selects the normalisers: the inverse square root where the degree is positive, zero elsewhere. -/
theorem normaliser2 (c : Dev nD) :
    (W2 m ρ c (Proc.devRef .tc main_v14) : FVec F S100000 .f32) = normaliser (m ((c.tc : Thread nD τ).loc main_arg1)) := by
  have hp := positive1 m ρ c
  have hr := rsqrt1 m ρ c
  have hz := zero1 m ρ c
  dsimp only [W2, hostOps0_1]
  generalize W1 m ρ c = V at hp hr hz ⊢
  after_results
  rw [hp, hr, hz]
  rfl

set_option maxHeartbeats 4000000 in
/-- It writes neither the sources -/
theorem sources2 (c : Dev nD) :
    (W2 m ρ c (Proc.devRef .tc main_v3) : IVec S1700000 32) = sources (m ((c.tc : Thread nD τ).loc main_arg1)) := by
  refine Eq.trans ?_ (sources1 m ρ c)
  dsimp only [W2, hostOps0_1]
  generalize W1 m ρ c = V
  after_results_simp <;> rfl

set_option maxHeartbeats 4000000 in
/-- nor the targets. -/
theorem targets2 (c : Dev nD) :
    (W2 m ρ c (Proc.devRef .tc main_v6) : IVec S1700000 32) = targets (m ((c.tc : Thread nD τ).loc main_arg1)) := by
  refine Eq.trans ?_ (targets1 m ρ c)
  dsimp only [W2, hostOps0_1]
  generalize W1 m ρ c = V
  after_results_simp <;> rfl

/-! ## The third stretch -/

set_option maxHeartbeats 4000000 in
/-- The third stretch leaves every edge slot's weight: the normalisers gathered at the slot's two ends, multiplied. -/
theorem weight3 (c : Dev nD) :
    (W3 m ρ c (Proc.devRef .tc main_v29) : FVec F S1700000 .f32) = weight (m ((c.tc : Thread nD τ).loc main_arg1)) := by
  have hn := normaliser2 m ρ c
  have hs := sources2 m ρ c
  have ht := targets2 m ρ c
  dsimp only [W3, hostOps0_2]
  generalize W2 m ρ c = V at hn hs ht ⊢
  after_results
  rw [hn, hs, ht]
  rfl

set_option maxHeartbeats 4000000 in
/-- It writes neither the sources -/
theorem sources3 (c : Dev nD) :
    (W3 m ρ c (Proc.devRef .tc main_v3) : IVec S1700000 32) = sources (m ((c.tc : Thread nD τ).loc main_arg1)) := by
  refine Eq.trans ?_ (sources2 m ρ c)
  dsimp only [W3, hostOps0_2]
  generalize W2 m ρ c = V
  after_results_simp <;> rfl

set_option maxHeartbeats 4000000 in
/-- nor the targets. -/
theorem targets3 (c : Dev nD) :
    (W3 m ρ c (Proc.devRef .tc main_v6) : IVec S1700000 32) = targets (m ((c.tc : Thread nD τ).loc main_arg1)) := by
  refine Eq.trans ?_ (targets2 m ρ c)
  dsimp only [W3, hostOps0_2]
  generalize W2 m ρ c = V
  after_results_simp <;> rfl

/-! ## The arguments -/

set_option maxHeartbeats 4000000 in
/-- No host operation writes argument 0: when the first launch is entered it is as launched. -/
theorem arg0_3 (c : Dev nD) : W3 m ρ c (Proc.devRef .tc main_arg0) = m ((c.tc : Thread nD τ).loc main_arg0) := by
  have h0 : W0 m ρ c (Proc.devRef .tc main_arg0) = m ((c.tc : Thread nD τ).loc main_arg0) := rfl
  refine Eq.trans ?_ h0
  dsimp only [W3, W2, W1, hostOps0_2, hostOps0_1, hostOps0]
  generalize W0 m ρ c = V
  after_results_simp <;> rfl

set_option maxHeartbeats 4000000 in
/-- No host operation writes argument 2: when the first launch is entered it is as launched. -/
theorem arg2_3 (c : Dev nD) : W3 m ρ c (Proc.devRef .tc main_arg2) = m ((c.tc : Thread nD τ).loc main_arg2) := by
  have h0 : W0 m ρ c (Proc.devRef .tc main_arg2) = m ((c.tc : Thread nD τ).loc main_arg2) := rfl
  refine Eq.trans ?_ h0
  dsimp only [W3, W2, W1, hostOps0_2, hostOps0_1, hostOps0]
  generalize W0 m ρ c = V
  after_results_simp <;> rfl

set_option maxHeartbeats 4000000 in
/-- No host operation writes argument 3: when the first launch is entered it is as launched. -/
theorem arg3_3 (c : Dev nD) : W3 m ρ c (Proc.devRef .tc main_arg3) = m ((c.tc : Thread nD τ).loc main_arg3) := by
  have h0 : W0 m ρ c (Proc.devRef .tc main_arg3) = m ((c.tc : Thread nD τ).loc main_arg3) := rfl
  refine Eq.trans ?_ h0
  dsimp only [W3, W2, W1, hostOps0_2, hostOps0_1, hostOps0]
  generalize W0 m ρ c = V
  after_results_simp <;> rfl

set_option maxHeartbeats 4000000 in
/-- No host operation writes argument 4: when the first launch is entered it is as launched. -/
theorem arg4_3 (c : Dev nD) : W3 m ρ c (Proc.devRef .tc main_arg4) = m ((c.tc : Thread nD τ).loc main_arg4) := by
  have h0 : W0 m ρ c (Proc.devRef .tc main_arg4) = m ((c.tc : Thread nD τ).loc main_arg4) := rfl
  refine Eq.trans ?_ h0
  dsimp only [W3, W2, W1, hostOps0_2, hostOps0_1, hostOps0]
  generalize W0 m ρ c = V
  after_results_simp <;> rfl

set_option maxHeartbeats 4000000 in
/-- No host operation writes argument 5: when the first launch is entered it is as launched. -/
theorem arg5_3 (c : Dev nD) : W3 m ρ c (Proc.devRef .tc main_arg5) = m ((c.tc : Thread nD τ).loc main_arg5) := by
  have h0 : W0 m ρ c (Proc.devRef .tc main_arg5) = m ((c.tc : Thread nD τ).loc main_arg5) := rfl
  refine Eq.trans ?_ h0
  dsimp only [W3, W2, W1, hostOps0_2, hostOps0_1, hostOps0]
  generalize W0 m ρ c = V
  after_results_simp <;> rfl

end Cert.KernelIdeal.Entry

end
-- ==== Proof.Boundaries.lean ====
/-
  The kernel program's buffers from the first launch to the return, as functions of the arguments.

  · The first launch leaves the whole product of the input rows by the first weights (`FirstProduct`) in its result
    buffer and writes back nothing else.
  · The two stretches after it gather that buffer's rows at the slots' sources, scale them by the weights, add them into
    the targets' rows, add the first bias and take `max(·, 0)`: the first layer, rectified.
  · The second launch leaves the whole product of those rows by the second weights (`SecondProduct`).
  · The last stretch applies the second layer to it: the result.
  A buffer that no operation of a stretch writes, and no launch writes back, is read through to the boundary before.
  The host stretches are read for any float values; only the two launches' products are read on the extended reals.
-/
import proofs.«178475_j13331578486813_1_alg».proof.Proof.Gen.KernelIdeal.Frame
import proofs.«178475_j13331578486813_1_alg».proof.Proof.GraphLayer
import proofs.«178475_j13331578486813_1_alg».proof.Proof.FirstProduct
import proofs.«178475_j13331578486813_1_alg».proof.Proof.SecondProduct
import proofs.«178475_j13331578486813_1_alg».proof.Proof.Entry
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.KernelIdeal.GraphLayer Cert.KernelIdeal.Entry

section AnyFloats

variable {F : FTy → Type} [FloatOps F]

variable (m : (ℓ : Loc nD τ sig) → Buf (Elt F) ℓ) (ρ : Dev nD → PrngReg)

/-! ## The first launch writes back only its result -/

/-- After it the sources, -/
theorem sources4 (c : Dev nD) : (W4 m ρ c (Proc.devRef .tc main_v3) : IVec S1700000 32) = sources (m ((c.tc : Thread nD τ).loc main_arg1)) :=
  (W4_of_ne m ρ c main_v3 (by decide)).trans (sources3 m ρ c)
/-- the targets, -/
theorem targets4 (c : Dev nD) : (W4 m ρ c (Proc.devRef .tc main_v6) : IVec S1700000 32) = targets (m ((c.tc : Thread nD τ).loc main_arg1)) :=
  (W4_of_ne m ρ c main_v6 (by decide)).trans (targets3 m ρ c)
/-- the weights -/
theorem weight4 (c : Dev nD) : (W4 m ρ c (Proc.devRef .tc main_v29) : FVec F S1700000 .f32) = weight (m ((c.tc : Thread nD τ).loc main_arg1)) :=
  (W4_of_ne m ρ c main_v29 (by decide)).trans (weight3 m ρ c)
/-- and the biases and the second weights are as before it. -/
theorem arg3_4 (c : Dev nD) : W4 m ρ c (Proc.devRef .tc main_arg3) = m ((c.tc : Thread nD τ).loc main_arg3) :=
  (W4_of_ne m ρ c main_arg3 (by decide)).trans (arg3_3 m ρ c)
theorem arg4_4 (c : Dev nD) : W4 m ρ c (Proc.devRef .tc main_arg4) = m ((c.tc : Thread nD τ).loc main_arg4) :=
  (W4_of_ne m ρ c main_arg4 (by decide)).trans (arg4_3 m ρ c)
theorem arg5_4 (c : Dev nD) : W4 m ρ c (Proc.devRef .tc main_arg5) = m ((c.tc : Thread nD τ).loc main_arg5) :=
  (W4_of_ne m ρ c main_arg5 (by decide)).trans (arg5_3 m ρ c)

/-! ## Between the launches -/

set_option maxHeartbeats 4000000 in
/-- The stretches between the launches leave the first layer of the first launch's result, rectified. -/
theorem hidden6 (c : Dev nD) :
    (W6 m ρ c (Proc.devRef .tc main_v47) : FVec F S100000x128 .f32)
      = relu128 (layer128 (W4 m ρ c (Proc.devRef .tc main_v30)) (m ((c.tc : Thread nD τ).loc main_arg1)) (m ((c.tc : Thread nD τ).loc main_arg3))) := by
  have hs := sources4 m ρ c
  have ht := targets4 m ρ c
  have hw := weight4 m ρ c
  have hb := arg3_4 m ρ c
  dsimp only [W6, W5, hostOps1_1, hostOps1]
  generalize W4 m ρ c = V at hs ht hw hb ⊢
  after_results
  rw [hs, ht, hw, hb]
  rfl

set_option maxHeartbeats 4000000 in
/-- They write neither the sources, -/
theorem sources6 (c : Dev nD) : (W6 m ρ c (Proc.devRef .tc main_v3) : IVec S1700000 32) = sources (m ((c.tc : Thread nD τ).loc main_arg1)) := by
  refine Eq.trans ?_ (sources4 m ρ c)
  dsimp only [W6, W5, hostOps1_1, hostOps1]
  generalize W4 m ρ c = V
  after_results_simp <;> rfl

set_option maxHeartbeats 4000000 in
/-- nor the targets, -/
theorem targets6 (c : Dev nD) : (W6 m ρ c (Proc.devRef .tc main_v6) : IVec S1700000 32) = targets (m ((c.tc : Thread nD τ).loc main_arg1)) := by
  refine Eq.trans ?_ (targets4 m ρ c)
  dsimp only [W6, W5, hostOps1_1, hostOps1]
  generalize W4 m ρ c = V
  after_results_simp <;> rfl

set_option maxHeartbeats 4000000 in
/-- nor the weights, -/
theorem weight6 (c : Dev nD) : (W6 m ρ c (Proc.devRef .tc main_v29) : FVec F S1700000 .f32) = weight (m ((c.tc : Thread nD τ).loc main_arg1)) := by
  refine Eq.trans ?_ (weight4 m ρ c)
  dsimp only [W6, W5, hostOps1_1, hostOps1]
  generalize W4 m ρ c = V
  after_results_simp <;> rfl

set_option maxHeartbeats 4000000 in
/-- nor the second weights, -/
theorem arg4_6 (c : Dev nD) : W6 m ρ c (Proc.devRef .tc main_arg4) = m ((c.tc : Thread nD τ).loc main_arg4) := by
  refine Eq.trans ?_ (arg4_4 m ρ c)
  dsimp only [W6, W5, hostOps1_1, hostOps1]
  generalize W4 m ρ c = V
  after_results_simp <;> rfl

set_option maxHeartbeats 4000000 in
/-- nor the second bias. -/
theorem arg5_6 (c : Dev nD) : W6 m ρ c (Proc.devRef .tc main_arg5) = m ((c.tc : Thread nD τ).loc main_arg5) := by
  refine Eq.trans ?_ (arg5_4 m ρ c)
  dsimp only [W6, W5, hostOps1_1, hostOps1]
  generalize W4 m ρ c = V
  after_results_simp <;> rfl

/-! ## The second launch writes back only its result -/

/-- After it the sources, -/
theorem sources7 (c : Dev nD) : (W7 m ρ c (Proc.devRef .tc main_v3) : IVec S1700000 32) = sources (m ((c.tc : Thread nD τ).loc main_arg1)) :=
  (W7_of_ne m ρ c main_v3 (by decide)).trans (sources6 m ρ c)
/-- the targets, -/
theorem targets7 (c : Dev nD) : (W7 m ρ c (Proc.devRef .tc main_v6) : IVec S1700000 32) = targets (m ((c.tc : Thread nD τ).loc main_arg1)) :=
  (W7_of_ne m ρ c main_v6 (by decide)).trans (targets6 m ρ c)
/-- the weights -/
theorem weight7 (c : Dev nD) : (W7 m ρ c (Proc.devRef .tc main_v29) : FVec F S1700000 .f32) = weight (m ((c.tc : Thread nD τ).loc main_arg1)) :=
  (W7_of_ne m ρ c main_v29 (by decide)).trans (weight6 m ρ c)
/-- and the second bias are as before it. -/
theorem arg5_7 (c : Dev nD) : W7 m ρ c (Proc.devRef .tc main_arg5) = m ((c.tc : Thread nD τ).loc main_arg5) :=
  (W7_of_ne m ρ c main_arg5 (by decide)).trans (arg5_6 m ρ c)

/-! ## The last stretch -/

set_option maxHeartbeats 4000000 in
/-- The last stretch leaves the second layer of the second launch's result. -/
theorem result8 (c : Dev nD) :
    (W8 m ρ c (Proc.devRef .tc main_v64) : FVec F S100000x7 .f32)
      = layer7 (W7 m ρ c (Proc.devRef .tc main_v48)) (m ((c.tc : Thread nD τ).loc main_arg1)) (m ((c.tc : Thread nD τ).loc main_arg5)) := by
  have hs := sources7 m ρ c
  have ht := targets7 m ρ c
  have hw := weight7 m ρ c
  have hb := arg5_7 m ρ c
  dsimp only [W8, hostOps2]
  generalize W7 m ρ c = V at hs ht hw hb ⊢
  after_results
  rw [hs, ht, hw, hb]
  rfl

end AnyFloats

/-! ## On the extended reals: the launches' results are the whole products -/

section ExtendedReals

variable (m : (ℓ : Loc nD τ sig) → Buf (Elt Ideal) ℓ) (ρ : Dev nD → PrngReg)

/-- The first launch leaves the whole product of the input rows by the first weights. -/
theorem product4 (c : Dev nD) :
    (W4 m ρ c (Proc.devRef .tc main_v30) : FVec Ideal S100000x128 .f32) = FirstProduct.product (m ((c.tc : Thread nD τ).loc main_arg0)) (m ((c.tc : Thread nD τ).loc main_arg2)) := by
  refine (W4_arr m ρ c 2).trans ((FirstProduct.array_eq (V3 m ρ) c).trans ?_)
  show FirstProduct.product (W3 m ρ c (Proc.devRef .tc main_arg0)) (W3 m ρ c (Proc.devRef .tc main_arg2)) = _
  rw [arg0_3 m ρ c, arg2_3 m ρ c]

/-- The second launch leaves the whole product of the rectified first layer by the second weights. -/
theorem product7 (c : Dev nD) :
    (W7 m ρ c (Proc.devRef .tc main_v48) : FVec Ideal S100000x7 .f32) = SecondProduct.product (relu128 (layer128 (FirstProduct.product (m ((c.tc : Thread nD τ).loc main_arg0)) (m ((c.tc : Thread nD τ).loc main_arg2))) (m ((c.tc : Thread nD τ).loc main_arg1)) (m ((c.tc : Thread nD τ).loc main_arg3)))) (m ((c.tc : Thread nD τ).loc main_arg4)) := by
  refine (W7_arr m ρ c 2).trans ((SecondProduct.array_eq (V6 m ρ) c).trans ?_)
  show SecondProduct.product (W6 m ρ c (Proc.devRef .tc main_v47)) (W6 m ρ c (Proc.devRef .tc main_arg4)) = _
  rw [hidden6 m ρ c, arg4_6 m ρ c, product4 m ρ c]

/-- THE RESULT BUFFER AT THE RETURN is the two-layer network around the two whole products. -/
theorem network8 (c : Dev nD) :
    (W8 m ρ c (Proc.devRef .tc main_v64) : FVec Ideal S100000x7 .f32)
      = network (FirstProduct.product (m ((c.tc : Thread nD τ).loc main_arg0)) (m ((c.tc : Thread nD τ).loc main_arg2)))
          (fun h => SecondProduct.product h (m ((c.tc : Thread nD τ).loc main_arg4)))
          (m ((c.tc : Thread nD τ).loc main_arg1)) (m ((c.tc : Thread nD τ).loc main_arg3)) (m ((c.tc : Thread nD τ).loc main_arg5)) := by
  rw [result8 m ρ c, product7 m ρ c]
  rfl

end ExtendedReals

end Cert.KernelIdeal.Boundaries

end
-- ==== Proof.ReferenceValue.lean ====
/-
  The reference's result is the two-layer network around its two dense products.

  The reference computes `x · W₁` as one whole product, applies the first graph-convolution layer and `max(·, 0)`,
  computes the second whole product of the result by `W₂`, and applies the second layer. It recomputes the edge slots,
  the degrees, the normalisers and the weights for the second layer from the same edge array; they are the same
  functions of that array. So its composed result is, operation for operation, the network of `GraphLayer` around its
  two products.
-/
import proofs.«178475_j13331578486813_1_alg».proof.Proof.ReferenceRun
import proofs.«178475_j13331578486813_1_alg».proof.Proof.GraphLayer
import proofs.«178475_j13331578486813_1_alg».proof.Proof.FirstProduct
import proofs.«178475_j13331578486813_1_alg».proof.Proof.SecondProduct

set_option maxRecDepth 16384

noncomputable section

namespace Cert.ReferenceIdeal.Network

open Idealize.ShloMosaic Idealize.ShloMosaic.TcCoe Idealize.SL.Sem
open Cert.ReferenceIdeal Cert.KernelIdeal.GraphLayer

variable (m : (ℓ : Loc nD τ sig) → Buf (Elt Ideal) ℓ)

set_option maxHeartbeats 4000000 in
/-- The reference's result, as composed from its operations, is the network around `x · W₁` and `(·) · W₂`. -/
theorem result_eq (c : Dev nD) :
    (Cert.ReferenceIdeal.ValueP.res_main_v94 (F := Ideal) m c : FVec Ideal Cert.KernelIdeal.S100000x7 .f32)
      = network
          (Cert.KernelIdeal.FirstProduct.product (m ((c.tc : Thread nD τ).loc main_arg0)) (m ((c.tc : Thread nD τ).loc main_arg2)))
          (fun h => Cert.KernelIdeal.SecondProduct.product h (m ((c.tc : Thread nD τ).loc main_arg4)))
          (m ((c.tc : Thread nD τ).loc main_arg1)) (m ((c.tc : Thread nD τ).loc main_arg3)) (m ((c.tc : Thread nD τ).loc main_arg5)) := by
  unfold Cert.ReferenceIdeal.ValueP.res_main_v94
  rfl

end Cert.ReferenceIdeal.Network

end
-- ==== Proof.lean ====
/-
  The certificate of a two-layer graph convolution: a kernel program with two tiled dense products against a plain
  reference.

  Both programs compute `out = L₂(max(L₁(x · W₁), 0) · W₂)`, where a layer `L` gathers, for each of the 1700000 edge
  slots (the given edges and one self loop per node), the source node's row, scales it by the slot's symmetric
  normalisation weight, adds it into the target node's row and adds a bias (`Proof/GraphLayer.lean`). The reference takes
  the two dense products whole. The kernel program takes each of them in 50 tiles of 2000 rows on the matrix unit, both
  operands rounded to bf16 and the sum accumulated from zero: on the extended reals the rounding is the identity, a
  tile's entry is the same finite sum of products as the whole product's entry, and the tiles cover the rows
  (`Proof/FirstProduct.lean`, `Proof/SecondProduct.lean`). Everything around the products is the same sequence of
  operations in both programs, so it is carried as one function of the product and never opened; no law of the extended
  reals beyond the definition of the two products is used, and the precondition (finite inputs) is not needed.
  The kernel program's buffers are read boundary by boundary in `Proof/Boundaries.lean`, its run with the result named
  is `Proof/KernelRun.lean`, and the reference's run and composed result are `Proof/ReferenceRun.lean` and
  `Proof/ReferenceValue.lean`. The ideal pass rewrote nothing, so the idealization claim is trivial.
-/
import proofs.«178475_j13331578486813_1_alg».proof.Defs
import proofs.«178475_j13331578486813_1_alg».proof.Proof.Gen.Kernel
import proofs.«178475_j13331578486813_1_alg».proof.Proof.Gen.Kernel.Skeleton
import proofs.«178475_j13331578486813_1_alg».proof.Proof.Gen.Kernel.Launch
import proofs.«178475_j13331578486813_1_alg».proof.Proof.Gen.Kernel.Points
import proofs.«178475_j13331578486813_1_alg».proof.Proof.Gen.Kernel.Frame
import proofs.«178475_j13331578486813_1_alg».proof.Proof.Gen.KernelIdeal
import proofs.«178475_j13331578486813_1_alg».proof.Proof.Gen.KernelIdeal.Skeleton
import proofs.«178475_j13331578486813_1_alg».proof.Proof.Gen.KernelIdeal.Launch
import proofs.«178475_j13331578486813_1_alg».proof.Proof.Gen.KernelIdeal.Points
import proofs.«178475_j13331578486813_1_alg».proof.Proof.Gen.KernelIdeal.Frame
import proofs.«178475_j13331578486813_1_alg».proof.Proof.Gen.ReferenceIdeal
import proofs.«178475_j13331578486813_1_alg».proof.Proof.Gen.Pre_finite_inputs
import proofs.«178475_j13331578486813_1_alg».proof.Proof.KernelRun
import proofs.«178475_j13331578486813_1_alg».proof.Proof.Boundaries
import proofs.«178475_j13331578486813_1_alg».proof.Proof.ReferenceRun
import proofs.«178475_j13331578486813_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the two-layer network around the two whole dense
    products of those arguments: the kernel program by its boundaries, the reference by its composed term. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.Network.result_eq m' c).trans ?_
  rw [(hagree c).1, (hagree c).2.1, (hagree c).2.2.1, (hagree c).2.2.2.1, (hagree c).2.2.2.2.1, (hagree c).2.2.2.2.2]
  exact (Cert.KernelIdeal.Boundaries.network8 m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
